-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x336 : Shape := ⟨3, ![64, 2048, 336]⟩
abbrev S_ : Shape := ⟨0, ![]⟩

class Facts : Prop where
  bcast_S_S64x2048x336 : S_.BroadcastsInDim S64x2048x336 (![] : Fin 0 → Fin S64x2048x336.rank)
  reducesTo_S64x2048x336_S_d0_1_2 : S64x2048x336.ReducesTo [0, 1, 2] S_
  h_S_ : 0 < S_.numel

variable [Facts]

def fn {F : FTy → Type} [FloatOps F] (main_arg0 : FVec F S64x2048x336 .f32) : IVec S_ 1 :=
  let main_v0 : FVec F S64x2048x336 .f32 := Host.absf main_arg0
  let main_cst : FVec F S_ .f32 := constant S_ .f32 0x7F800000#32
  let main_v1 : FVec F S64x2048x336 .f32 := broadcastInDim S64x2048x336 ![] bcast_S_S64x2048x336 main_cst
  let main_v2 : IVec S64x2048x336 1 := cmpf .olt main_v0 main_v1
  let main_c : IVec S_ 1 := constantI S_ 1 1#1
  let main_v3 : IVec S_ 1 := (fun x v => Host.reduce IntOp.andi x v reducesTo_S64x2048x336_S_d0_1_2 h_S_) main_v2 main_c
  main_v3
-- ==== Kernel.lean ====
abbrev S64x2048x336 : Shape := ⟨3, ![64, 2048, 336]⟩
abbrev S1x2048x336 : Shape := ⟨3, ![1, 2048, 336]⟩
abbrev S2048x336 : Shape := ⟨2, ![2048, 336]⟩

abbrev nBuf : Space → Nat
  | .hbm => 2
  | .vmem => 4
  | .smem => 0
  | _ => 0

abbrev bufTy : (tb : Table) → Fin (tcTables nBuf tb) → BufTy
  | .hbm, ⟨0, _⟩ => ⟨S64x2048x336, .f32⟩
  | .hbm, ⟨1, _⟩ => ⟨S64x2048x336, .f32⟩
  | .local _ .vmem, ⟨0, _⟩ => ⟨S1x2048x336, .f32⟩
  | .local _ .vmem, ⟨1, _⟩ => ⟨S1x2048x336, .f32⟩
  | .local _ .vmem, ⟨2, _⟩ => ⟨S1x2048x336, .f32⟩
  | .local _ .vmem, ⟨3, _⟩ => ⟨S1x2048x336, .f32⟩
  | _, _ => ⟨S64x2048x336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x336 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x336 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x2048x336_S1x2048x336_0_0_0 : ∀ a, (![0, 0, 0] : Fin 3 → Nat) a + S1x2048x336.size a ≤ S1x2048x336.size a
  h_S1x2048x336 : 0 < S1x2048x336.numel
  shapeCasts_S1x2048x336_S2048x336 : S1x2048x336.ShapeCasts S2048x336
  iota_S2048x336_d1_w32 : S2048x336.Iotas .tc 32 [1]
  rotates_S2048x336_d1 : S2048x336.Rotates 1 none
  shapeCasts_S2048x336_S1x2048x336 : S2048x336.ShapeCasts S1x2048x336
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x336.size a ≤ S64x2048x336.size a
  hwx0_0 : ∀ i : grid0.Coords, EltTy.bits .f32 = 32 ∨ (Rect.block (s := S64x2048x336) S1x2048x336.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x336.size a ≤ S64x2048x336.size a
  hwx0_1 : ∀ i : grid0.Coords, EltTy.bits .f32 = 32 ∨ (Rect.block (s := S64x2048x336) S1x2048x336.size (cc0_transform_1 i) (hinb0_1 i)).WholeWords (EltTy.packing .f32)

variable [Facts₀]

abbrev win0_0 : Pipeline.Window sig grid0 :=
  Pipeline.Window.ofSpec (Memref.whole main_arg0) S1x2048x336.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x336.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x2048x336 : Shape := ⟨3, ![64, 2048, 336]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S64x2048x336, .f32⟩
  | .hbm, ⟨1, _⟩ => ⟨S_, .f32⟩
  | .hbm, ⟨2, _⟩ => ⟨S_, .f32⟩
  | .hbm, ⟨3, _⟩ => ⟨S64x2048x336, .f32⟩
  | _, _ => ⟨S64x2048x336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S64x2048x336_S64x2048x336_w1s1p0_0_w1s1p0_0_w25s1p24_0 : S64x2048x336.ReduceWindows (![1, 1, 25] : Fin 3 → Nat) ![1, 1, 1] ![0, 0, 24] ![0, 0, 0] S64x2048x336
  h_S_ : 0 < S_.numel

variable [Facts₀]

class Facts : Prop extends Facts₀ where

variable [Facts]
-- ==== Proof.LibUnitAxisIx.lean ====
/-
  A block with a leading unit axis and the matrix it holds: the shape cast that drops the leading unit axis of a
  `[1, a, b]` block reads the entry `(p, q)` of the matrix at the entry `(0, p, q)` of the block (`dropUnit_ix`), and the
  shape cast that adds a leading unit axis to an `[a, b]` matrix reads the entry `(0, p, q)` of the block at the entry
  `(p, q)` of the matrix (`addUnit_ix`). Both are stated at `ix2` / `ix3` coordinates, the unit coordinate being any
  `z : Fin 1`.
-/
import Idealize.ShloMosaic.Lib.Pipeline.Value
import Idealize.ShloMosaic.Lib.ValueIdx

namespace UnitAxisIx

open Idealize.ShloMosaic Idealize.ShloMosaic.ValueIdx

variable {α : Type} {n0 n1 : ℕ}

/-- Dropping the leading unit axis of a block: the entry (p, q) of the matrix is the entry (z, p, q) of the block. -/
theorem dropUnit_ix (v : (⟨3, ![1, n0, n1]⟩ : Shape).Idx → α)
    (h : (⟨3, ![1, n0, n1]⟩ : Shape).ShapeCasts ⟨2, ![n0, n1]⟩) (z : Fin 1) (p : Fin n0) (q : Fin n1) :
    shapeCast ⟨2, ![n0, n1]⟩ v h (ix2 p q) = v (ix3 z p q) := by
  refine (shapeCast_dropUnit_apply ![n0, n1] v h (ix2 p q)).trans (congrArg v ?_)
  funext a
  match a with
  | ⟨0, _⟩ => exact Fin.ext (by show (0 : ℕ) = z.val; have := z.isLt; omega)
  | ⟨1, _⟩ => rfl
  | ⟨2, _⟩ => rfl

/-- Adding a leading unit axis to a matrix: the entry (z, p, q) of the block is the entry (p, q) of the matrix. -/
theorem addUnit_ix (v : (⟨2, ![n0, n1]⟩ : Shape).Idx → α)
    (h : (⟨2, ![n0, n1]⟩ : Shape).ShapeCasts ⟨3, ![1, n0, n1]⟩) (z : Fin 1) (p : Fin n0) (q : Fin n1) :
    shapeCast ⟨3, ![1, n0, n1]⟩ v h (ix3 z p q) = v (ix2 p q) := by
  refine (shapeCast_addUnit_apply ![n0, n1] v h (ix3 z p q)).trans (congrArg v ?_)
  funext a
  match a with
  | ⟨0, _⟩ => rfl
  | ⟨1, _⟩ => rfl

end UnitAxisIx
-- ==== Proof.CausalMax.lean ====
/-
  The causal window maximum along a row, in its two orders of evaluation.

  Fix a family of terms `T 0, T 1, …, T n` in a linear order with a least element. Starting from `T 0` and taking the
  maximum with `T 1`, …, `T n` in turn gives the same value as starting from the least element and taking the maximum
  with `T n`, `T (n - 1)`, …, `T 0` in turn: a maximum over a finite family does not depend on the order in which its
  terms are met (the maximum is commutative and associative), and the least element is neutral for it. No other law of
  the order is used; in particular nothing here asks the terms to be finite.
-/
import Idealize.ShloMosaic.PureOps.Ideal

namespace CausalMax

/-- Folding the maximum over `T 1, …, T n` from `T 0` is folding it over `T n, …, T 0` from the least element. -/
theorem fold_up_eq_fold_down {α : Type*} [LinearOrder α] [OrderBot α] (T : ℕ → α) (n : ℕ) :
    (List.range' 1 n).foldl (fun r o => max r (T o)) (T 0)
      = (List.range (n + 1)).foldl (fun r k => max r (T (n - k))) ⊥ := by
  -- the upward fold may as well start one step earlier, from the neutral element
  have hup : (List.range' 1 n).foldl (fun r o => max r (T o)) (T 0)
      = (List.range' 0 (n + 1)).foldl (fun r o => max r (T o)) ⊥ := by
    rw [List.range'_succ, List.foldl_cons, max_bot_left]
  -- the downward fold meets the same terms in the reverse order
  have hrev : List.map (fun k => n - k) (List.range (n + 1)) = (List.range' 0 (n + 1)).reverse := by
    rw [List.reverse_range']; simp
  haveI : RightCommutative (fun (r : α) (o : ℕ) => max r (T o)) := ⟨fun a b c => max_right_comm _ _ _⟩
  rw [hup, ← List.foldl_map (f := fun k => n - k) (g := fun r o => max r (T o)), hrev]
  exact ((List.reverse_perm _).foldl_eq _).symm

end CausalMax
-- ==== Proof.Pooled.lean ====
/-
  The causal max-pool along the last axis, as one function of the array.

  For an array `x` of shape [64, 2048, 336] the pooled array has at `(b, c, l)` the maximum of the entries
  `x (b, c, l - o)` over the lags `o = 0, …, 24` that stay inside the row (`o ≤ l`); a lag that would reach left of the
  row's start contributes `-∞`, the neutral element of the maximum. `rowMax` takes the terms in the order of increasing
  lag, starting from lag 0; `rowMax_eq_down` is the same value met in the order of decreasing lag from `-∞`
  (the order in which a window sliding over the row padded on the left meets them).
-/
import Idealize.ShloMosaic.Lib.ValueIdx
import proofs.«145647_j67817533603999_2_alg».proof.Proof.CausalMax

noncomputable section

namespace Pooled

open Idealize.ShloMosaic Idealize.ShloMosaic.ValueIdx

/-- The term of lag `o` at position `l` of a row `X` read by position: the entry `o` places to the left, or `-∞` when
    that place is left of the row's start. -/
def term (X : ℕ → EReal) (l o : ℕ) : EReal := if o ≤ l then X (l - o) else ⊥

/-- The causal window maximum at position `l` of a row: the maximum of the terms of lag 0, 1, …, 24, in that order. -/
def rowMax (X : ℕ → EReal) (l : ℕ) : EReal :=
  (List.range' 1 24).foldl (fun r o => max r (term X l o)) (term X l 0)

/-- The same maximum, the terms met from lag 24 down to lag 0, starting from `-∞`. -/
theorem rowMax_eq_down (X : ℕ → EReal) (l : ℕ) :
    rowMax X l = (List.range 25).foldl (fun r k => max r (term X l (24 - k))) ⊥ :=
  CausalMax.fold_up_eq_fold_down (term X l) 24

/-- Row `(b, c)` of the array read by position (`-∞` past the row's end, a place no term reads). -/
def row (x : (⟨3, ![64, 2048, 336]⟩ : Shape).Idx → EReal) (b : Fin 64) (c : Fin 2048) (k : ℕ) : EReal :=
  if h : k < 336 then x (ix3 b c ⟨k, h⟩) else ⊥

/-- The pooled array: at `(b, c, l)` the causal window maximum at position `l` of row `(b, c)`. -/
def pooled (x : (⟨3, ![64, 2048, 336]⟩ : Shape).Idx → EReal) : (⟨3, ![64, 2048, 336]⟩ : Shape).Idx → EReal :=
  fun i => rowMax (row x (i 0) (i 1)) (i 2).val

theorem pooled_apply (x : (⟨3, ![64, 2048, 336]⟩ : Shape).Idx → EReal) (b : Fin 64) (c : Fin 2048) (l : Fin 336) :
    pooled x (ix3 b c l) = rowMax (row x b c) l.val := rfl

end Pooled

end
-- ==== Proof.KernelRow.lean ====
/-
  What the kernel's body leaves in its output block, read at an entry.

  The body holds one [2048, 336] slab `v` (the [1, 2048, 336] block without its unit axis). For each lag `o = 1, …, 24` it
  rotates every row of the slab by `o` places towards the row's end, so that place `l` holds the entry of place
  `l - o` (and the first `o` places hold the entries brought around from the row's end), masks those first `o` places
  (position `l < o`) to `-∞`, and takes the entrywise maximum with what it has so far, starting from `v` itself. So at
  `(c, l)` it leaves the maximum of `v (c, l)` and, for each lag, the term `v (c, l - o)` if `o ≤ l` and `-∞` otherwise:
  the causal window maximum at position `l` of row `c` of the slab (`Pooled.rowMax`), the terms met in the order of
  increasing lag.
-/
import proofs.«145647_j67817533603999_2_alg».proof.Proof.Gen.KernelIdeal.Frame
import proofs.«145647_j67817533603999_2_alg».proof.Proof.LibUnitAxisIx
import proofs.«145647_j67817533603999_2_alg».proof.Proof.Pooled
import Idealize.ShloMosaic.Lib.KernelVsHost
import Idealize.ShloMosaic.Lib.Affine
import Idealize.ShloMosaic.Lib.ValueIdx
import Idealize.ShloMosaic.Lib.Pipeline.Value

noncomputable section

namespace KernelRow

open Idealize.ShloMosaic Idealize.ShloMosaic.ValueIdx Cert.KernelIdeal Cert.KernelIdeal.Gen Pooled

/-! ## Small words -/

/-- A number below 2³¹ is its 32-bit word read signed. -/
theorem toInt_small (n : ℕ) (h : n < 2 ^ 31) : (BitVec.ofNat 32 n).toInt = (n : ℤ) := by
  have h1 : (BitVec.ofNat 32 n).toNat = n := by rw [BitVec.toNat_ofNat]; omega
  rw [BitVec.toInt_eq_toNat_of_lt (by rw [h1]; omega), h1]

/-- The signed comparison `l ≥ o` of two small words is the comparison of the numbers. -/
theorem sge_small (l o : ℕ) (hl : l < 2 ^ 31) (ho : o < 2 ^ 31) :
    IntOp.cmpi .sge (BitVec.ofNat 32 l) (BitVec.ofNat 32 o) = 1#1 ↔ o ≤ l := by
  rw [IntOp.cmpi_sge, toInt_small l hl, toInt_small o ho]; omega

/-- The mask's fill value is `-∞`. -/
theorem neg_inf : Ideal.ofBits .f32 0xFF800000#32 = (⊥ : EReal) := by simp [Ideal.ofBits, Ideal.ieee]

/-! ## The body as a fold of masked rotations -/

/-- The slab rotated by `o` places along its rows, the first `o` places of every row masked to `-∞`. -/
def shifted (o : ℕ) (v : FVec Ideal S2048x336 .f32) : FVec Ideal S2048x336 .f32 :=
  select (cmpi .sge (iota .tc S2048x336 32 [1] Facts₀.iota_S2048x336_d1_w32) (broadcast S2048x336 (BitVec.ofNat 32 o)))
    (dynamicRotate 1 (BitVec.ofNat 32 o) none v Facts₀.rotates_S2048x336_d1)
    (broadcast S2048x336 (Scalar.ofBits .f32 0xFF800000#32))

/-- The body's arithmetic on the slab: the entrywise maximum with the masked rotations by 1, …, 24, in that order. -/
def body (v : FVec Ideal S2048x336 .f32) : FVec Ideal S2048x336 .f32 :=
  (List.range' 1 24).foldl (fun r o => maximumf r (shifted o v)) v

theorem origin : (![0, 0, 0] : Fin 3 → Nat) = fun _ => 0 := funext fun a => by fin_cases a <;> rfl

/-- What the body leaves in the output block: the block's slab through `body`, as a block again. -/
theorem out_eq (xb : Vec Ideal S1x2048x336 .f32) :
    out0_1 (F := Ideal) xb
      = shapeCast S1x2048x336 (body (shapeCast S2048x336 xb Facts₀.shapeCasts_S1x2048x336_S2048x336))
          Facts₀.shapeCasts_S2048x336_S1x2048x336 := by
  unfold out0_1
  rw [View.canon_unit_zero origin]
  simp only [View.ld_unit_zero (S := S1x2048x336) origin]
  rfl

/-! ## The body read at an entry -/

/-- A fold of entrywise maxima, read at an entry, is the fold of the maxima of the entries. -/
theorem foldl_maximumf_apply {s : Shape} (L : List ℕ) (f : ℕ → FVec Ideal s .f32) (v : FVec Ideal s .f32) (i : s.Idx) :
    (L.foldl (fun r o => maximumf r (f o)) v) i = L.foldl (fun r o => max r (f o i)) (v i) := by
  induction L generalizing v with
  | nil => rfl
  | cons a L ih =>
    rw [List.foldl_cons, List.foldl_cons, ih]
    rfl

/-- Row `c` of a slab read by position (`-∞` past the row's end). -/
def slabRow (v : FVec Ideal S2048x336 .f32) (c : Fin 2048) (k : ℕ) : EReal :=
  if h : k < 336 then v (ix2 c ⟨k, h⟩) else ⊥

/-- The masked rotation by `o` at `(c, l)` is the term of lag `o` at position `l` of row `c`. -/
theorem shifted_apply (o : ℕ) (ho : o < 336) (v : FVec Ideal S2048x336 .f32) (c : Fin 2048) (l : Fin 336) :
    shifted o v (ix2 c l) = term (slabRow v c) l.val o := by
  have hl : l.val < 336 := l.isLt
  unfold shifted term
  rw [select_apply]
  show Scalar.select (IntOp.cmpi .sge (iota .tc S2048x336 32 [1] Facts₀.iota_S2048x336_d1_w32 (ix2 c l)) (BitVec.ofNat 32 o))
      (dynamicRotate 1 (BitVec.ofNat 32 o) none v Facts₀.rotates_S2048x336_d1 (ix2 c l)) (Ideal.ofBits .f32 0xFF800000#32) = _
  rw [iota_single_apply]
  show Scalar.select (IntOp.cmpi .sge (BitVec.ofNat 32 l.val) (BitVec.ofNat 32 o)) _ _ = _
  unfold Scalar.select
  by_cases h : o ≤ l.val
  · have hc : IntOp.cmpi .sge (BitVec.ofNat 32 l.val) (BitVec.ofNat 32 o) = (1 : BitVec 1) :=
      (sge_small l.val o (by omega) (by omega)).mpr h
    rw [if_pos hc, if_pos h]
    unfold slabRow
    rw [dif_pos (by omega)]
    refine dynamicRotate_apply (1 : Fin 2) (BitVec.ofNat 32 o) v Facts₀.rotates_S2048x336_d1 (ix2 c l)
      (ix2 c ⟨l.val - o, by omega⟩) (fun b => ?_)
    match b with
    | ⟨0, _⟩ => rfl
    | ⟨1, _⟩ =>
      show l.val - o = (l.val + 336 - (BitVec.ofNat 32 o).toNat % 336) % 336
      rw [BitVec.toNat_ofNat]
      omega
  · have hc : ¬ IntOp.cmpi .sge (BitVec.ofNat 32 l.val) (BitVec.ofNat 32 o) = (1 : BitVec 1) :=
      fun hc => h ((sge_small l.val o (by omega) (by omega)).mp hc)
    rw [if_neg hc, if_neg h]
    exact neg_inf

/-- The body's result at `(c, l)` is the causal window maximum at position `l` of row `c` of the slab. -/
theorem body_apply (v : FVec Ideal S2048x336 .f32) (c : Fin 2048) (l : Fin 336) :
    body v (ix2 c l) = rowMax (slabRow v c) l.val := by
  have hl : l.val < 336 := l.isLt
  unfold body rowMax
  rw [foldl_maximumf_apply]
  have h0 : v (ix2 c l) = term (slabRow v c) l.val 0 := by
    unfold term slabRow
    rw [if_pos (Nat.zero_le _), dif_pos (by omega)]
    rfl
  rw [h0]
  refine List.foldl_ext _ _ _ (fun r o ho => ?_)
  have ho' : o < 336 := by
    have := List.mem_range'_1.mp ho
    omega
  rw [shifted_apply o ho' v c l]

/-- What the body leaves in the output block at `(z, c, l)`: the causal window maximum at position `l` of row
    `(z, c)` of the input block. -/
theorem out_apply (xb : Vec Ideal S1x2048x336 .f32) (z : Fin 1) (c : Fin 2048) (l : Fin 336) :
    out0_1 (F := Ideal) xb (ix3 z c l)
      = rowMax (fun k => if h : k < 336 then xb (ix3 z c ⟨k, h⟩) else ⊥) l.val := by
  rw [out_eq, UnitAxisIx.addUnit_ix, body_apply]
  refine congrArg (fun X => rowMax X l.val) (funext fun k => ?_)
  unfold slabRow
  by_cases h : k < 336
  · rw [dif_pos h, dif_pos h]
    exact UnitAxisIx.dropUnit_ix _ _ z c ⟨k, h⟩
  · rw [dif_neg h, dif_neg h]

end KernelRow

end
-- ==== Proof.Whole.lean ====
/-
  From the kernel's blocks to its result array.

  The grid has one point per batch index `t = 0, …, 63`. At point `t` the input window's block is the slab
  `x (t, ·, ·)` and the output window's block is the slab `(t, ·, ·)` of the result, both whole [1, 2048, 336] blocks
  at block index `(t, 0, 0)`. What point `t` writes back is, entry by entry, the causal window maximum of the row
  of the input slab (`KernelRow.out_apply`), which is the slab `t` of the pooled array, since pooling a row looks at
  that row alone. The 64 slabs cover the array, so the result array ends holding the pooled array.
-/
import proofs.«145647_j67817533603999_2_alg».proof.Proof.Gen.KernelIdeal.Value
import proofs.«145647_j67817533603999_2_alg».proof.Proof.KernelRow
import proofs.«145647_j67817533603999_2_alg».proof.Proof.Pooled
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx Pooled
open Idealize.ShloMosaic.Pipeline (Dat)

variable (m : (ℓ : Loc nD τ sig) → Buf (Elt Ideal) ℓ) (ρ : Dev nD → PrngReg)

/-- Both windows' block index at point `t` is `(t, 0, 0)` (decided over the 64 points). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- A block that holds slab `b` of the array is sent by the body to slab `b` of the pooled array: pooling a row looks
    at that row alone. -/
theorem slab_eq (x : S64x2048x336.Idx → EReal) (xb : Vec Ideal S1x2048x336 .f32) (b : Fin 64)
    (hxb : ∀ (z : Fin 1) (p : Fin 2048) (q : Fin 336), xb (ix3 z p q) = x (ix3 b p q))
    (j : S1x2048x336.Idx) (i : S64x2048x336.Idx) (h0 : (i 0).val = b.val) (h1 : (i 1).val = (j 1).val)
    (h2 : (i 2).val = (j 2).val) :
    out0_1 (F := Ideal) xb j = pooled x i := by
  obtain ⟨z, p, q, rfl⟩ : ∃ (z : Fin 1) (p : Fin 2048) (q : Fin 336), j = ix3 z p q := ⟨j 0, j 1, j 2, eq_ix3 j⟩
  obtain ⟨b', c, l, rfl⟩ : ∃ (b' : Fin 64) (c : Fin 2048) (l : Fin 336), i = ix3 b' c l := ⟨i 0, i 1, i 2, eq_ix3 i⟩
  have hb : b' = b := Fin.ext h0
  have hc : c = p := Fin.ext h1
  have hl : l = q := Fin.ext h2
  subst hb hc hl
  rw [KernelRow.out_apply, pooled_apply]
  refine congrArg (fun X => rowMax X l.val) (funext fun k => ?_)
  unfold row
  by_cases h : k < 336
  · rw [dif_pos h, dif_pos h]; exact hxb z c ⟨k, h⟩
  · rw [dif_neg h, dif_neg h]

/-- WHAT POINT `t` WRITES BACK is block `t` of the pooled array of the argument as the region finds it. -/
theorem flushed_eq (c : Dev nD) (t : Fin cfg0.N) :
    (dats m 0 c).flushed 1 t = ((cfg0.win 1).blk t).view.read (Elt Ideal) (pooled (V m c main_arg0)) := by
  rw [Value.flushed1]
  obtain ⟨a0, a1, a2, b0, b1, b2⟩ := idx_facts t
  obtain ⟨b, hb⟩ : ∃ b : Fin 64, b.val = t.val := ⟨⟨t.val, t.isLt⟩, rfl⟩
  -- the input block at point t is slab b of the array
  have hxb : ∀ (z : Fin 1) (p : Fin 2048) (q : Fin 336),
      iblk m c 0 t (ix3 z p q) = V m c main_arg0 (ix3 b p q) := fun z p q => by
    show V m c main_arg0 (((cfg0.win 0).blk t).view.emb (ix3 z p q)) = V m c main_arg0 (ix3 b p q)
    refine congrArg (V m c main_arg0) (funext fun a => Fin.ext ?_)
    have hz : z.val < 1 := z.isLt
    match a with
    | ⟨0, _⟩ =>
      show win0_0.index t (0 : Fin 3) * 1 + 1 * z.val = b.val
      omega
    | ⟨1, _⟩ =>
      show win0_0.index t (1 : Fin 3) * 2048 + 1 * p.val = p.val
      omega
    | ⟨2, _⟩ =>
      show win0_0.index t (2 : Fin 3) * 336 + 1 * q.val = q.val
      omega
  -- so the body's result on it is slab b of the pooled array
  have key : ∀ j' : S1x2048x336.Idx,
      out0_1 (F := Ideal) (iblk m c 0 t) j' = pooled (V m c main_arg0) (ix3 b (j' 1) (j' 2)) := fun j' =>
    slab_eq (V m c main_arg0) (iblk m c 0 t) b hxb j' (ix3 b (j' 1) (j' 2)) rfl rfl rfl
  generalize out0_1 (F := Ideal) (iblk m c 0 t) = X at key ⊢
  generalize pooled (V m c main_arg0) = G at key ⊢
  funext j
  show X j = G (((cfg0.win 1).blk t).view.emb j)
  rw [key j]
  -- and the entry of the output block at point t sits in slab b of the result array
  refine congrArg G (funext fun a => Fin.ext ?_)
  have hj0 : (j 0).val < 1 := (j 0).isLt
  match a with
  | ⟨0, _⟩ =>
    show b.val = win0_1.index t (0 : Fin 3) * 1 + 1 * (j 0).val
    omega
  | ⟨1, _⟩ =>
    show (j 1).val = win0_1.index t (1 : Fin 3) * 2048 + 1 * (j 1).val
    omega
  | ⟨2, _⟩ =>
    show (j 2).val = win0_1.index t (2 : Fin 3) * 336 + 1 * (j 2).val
    omega

/-- An index of the array is in point `t`'s block iff each coordinate is in the block's range on its axis. -/
theorem mem_blk (t : Fin cfg0.N) (i : S64x2048x336.Idx) :
    i ∈ ((cfg0.win 1).blk t).view.set ↔ ∀ a : Fin 3, win0_1.index t a * S1x2048x336.size a ≤ (i a).val
      ∧ (i a).val < win0_1.index t a * S1x2048x336.size a + S1x2048x336.size a := by
  show i ∈ ((View.whole main_v0).slice (win0_1.rect t)).set ↔ _
  rw [View.set_slice_whole, Rect.mem_set_unit]
  exact Iff.rfl

/-- Every index of the array is in the block of the point of its batch index. -/
theorem cover (i : S64x2048x336.Idx) :
    ∃ t : Fin cfg0.N, (cfg0.win 1).flush t = true ∧ i ∈ ((cfg0.win 1).blk t).view.set := by
  obtain ⟨t, ht⟩ : ∃ t : Fin cfg0.N, t.val = (i 0).val := ⟨⟨(i 0).val, (i 0).isLt⟩, rfl⟩
  obtain ⟨a0, a1, a2, b0, b1, b2⟩ := idx_facts t
  have hi1 : (i 1).val < 2048 := (i 1).isLt
  have hi2 : (i 2).val < 336 := (i 2).isLt
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 2048 ≤ (i 1).val ∧ (i 1).val < win0_1.index t (1 : Fin 3) * 2048 + 2048
    omega
  | ⟨2, _⟩ =>
    show win0_1.index t (2 : Fin 3) * 336 ≤ (i 2).val ∧ (i 2).val < win0_1.index t (2 : Fin 3) * 336 + 336
    omega

/-- THE ARRAY after the run is the pooled array of the argument. -/
theorem final (c : Dev nD) :
    (dats m 0 c).arrAt 1 cfg0.N = pooled (m ((c : Thread nD τ).loc main_arg0)) :=
  (dats m 0 c).arrAt_eq_of_cover 1 (pooled (V m c main_arg0)) (fun t _ => flushed_eq m c t) cover

/-- The kernel's run: the result array ends at the pooled array of the argument, the argument unchanged. -/
theorem run : θ_run defs (onTc (τ := τ) (main (F := Ideal))) ⟨m, fun _ => 0, ρ⟩ fun r => ∀ c : Dev nD,
      r.2.mem ((c : Thread nD τ).loc main_v0) = pooled (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.RefWindow.lean ====
/-
  The reference's sliding window read at an entry.

  The reference pads each row with 24 copies of `-∞` on the left and takes, at position `l`, the maximum over the 25
  places `l, l + 1, …, l + 24` of the padded row, from `-∞`, in that order. Place `l + k` of the padded row is place
  `l - (24 - k)` of the row itself when `24 - k ≤ l` and padding otherwise: it is the term of lag `24 - k`. So the
  reference's entry is the row's causal window maximum with the terms met from lag 24 down to lag 0
  (`Pooled.rowMax_eq_down`). The window has extent 1 on the two leading axes, so a window position is its coordinate
  on the last axis.
-/
import proofs.«145647_j67817533603999_2_alg».proof.Proof.Gen.ReferenceIdeal.Read
import proofs.«145647_j67817533603999_2_alg».proof.Proof.Pooled
import Idealize.ShloMosaic.Lib.ValueIdx
import Idealize.ShloMosaic.Lib.Pipeline.Value

noncomputable section

namespace RefWindow

open Idealize.ShloMosaic Idealize.ShloMosaic.ValueIdx Cert.ReferenceIdeal Cert.ReferenceIdeal.Read Pooled

/-- The window [1, 1, 25] has 25 positions. -/
theorem numel_window : (⟨3, ![1, 1, 25]⟩ : Shape).numel = 25 := by decide

/-- A fold over the numbers below `N` as a fold over `Fin N`. -/
theorem foldl_finRange {β : Type} (N : ℕ) (g : β → ℕ → β) (b : β) :
    (List.finRange N).foldl (fun r n => g r n.val) b = (List.range N).foldl g b := by
  rw [← List.map_coe_finRange_eq_range, List.foldl_map]

/-- The padding value is `-∞`. -/
theorem neg_inf : Ideal.ofBits .f32 0xFF800000#32 = (⊥ : EReal) := by simp [Ideal.ofBits, Ideal.ieee]

/-- The `n`-th position of the window [1, 1, 25], in row-major order, is `(0, 0, n)`. -/
theorem window_coord (n : Fin (⟨3, ![1, 1, 25]⟩ : Shape).numel) :
    (((⟨3, ![1, 1, 25]⟩ : Shape).rowMajor.symm n) 0).val = 0 ∧ (((⟨3, ![1, 1, 25]⟩ : Shape).rowMajor.symm n) 1).val = 0
    ∧ (((⟨3, ![1, 1, 25]⟩ : Shape).rowMajor.symm n) 2).val = n.val := by
  have h := Shape.rowMajor_val_three ((⟨3, ![1, 1, 25]⟩ : Shape).rowMajor.symm n)
  rw [Equiv.apply_symm_apply] at h
  have h0 : (((⟨3, ![1, 1, 25]⟩ : Shape).rowMajor.symm n) 0).val < 1 := (((⟨3, ![1, 1, 25]⟩ : Shape).rowMajor.symm n) 0).isLt
  have h1 : (((⟨3, ![1, 1, 25]⟩ : Shape).rowMajor.symm n) 1).val < 1 := (((⟨3, ![1, 1, 25]⟩ : Shape).rowMajor.symm n) 1).isLt
  simp only [Matrix.cons_val_one, Matrix.cons_val_zero, Matrix.cons_val_two, Matrix.head_cons, Matrix.tail_cons] at h
  omega

/-- The reference's entry `(b, c, l)` is the causal window maximum at position `l` of row `(b, c)`. -/
theorem ref_apply (x : S64x2048x336.Idx → EReal) (b : Fin 64) (c : Fin 2048) (l : Fin 336) :
    val_main_v1 (F := Ideal) x (ix3 b c l) = rowMax (row x b c) l.val := by
  rw [rowMax_eq_down]
  have hv : val_main_v0 (F := Ideal) (Shape.Idx.first Gen.h_S_) = ⊥ := by
    rw [val_main_v0_apply, val_main_cst_apply]; exact neg_inf
  unfold val_main_v1 Host.reduceWindow
  dsimp only
  rw [hv]
  refine Eq.trans ?_ (congrArg (fun N => (List.range N).foldl (fun r k => max r (term (row x b c) l.val (24 - k))) ⊥) numel_window)
  rw [← foldl_finRange]
  refine congrArg (fun f => List.foldl f ⊥ _) (funext fun r => funext fun n => ?_)
  show max r _ = max r _
  congr 1
  obtain ⟨w0, w1, w2⟩ := window_coord n
  have hn : n.val < 25 := lt_of_lt_of_eq n.isLt numel_window
  have hb : b.val < 64 := b.isLt
  have hc : c.val < 2048 := c.isLt
  have hl : l.val < 336 := l.isLt
  by_cases h : 24 - n.val ≤ l.val
  · -- the place is inside the row: the entry `24 - n` places to the left of `l`
    have hin : ∀ a : Fin 3, ![0, 0, 24] a ≤ (ix3 b c l (Fin.cast rfl a)).val * ![1, 1, 1] a
          + ((⟨3, ![1, 1, 25]⟩ : Shape).rowMajor.symm n a).val
        ∧ (ix3 b c l (Fin.cast rfl a)).val * ![1, 1, 1] a + ((⟨3, ![1, 1, 25]⟩ : Shape).rowMajor.symm n a).val
          - ![0, 0, 24] a < ![64, 2048, 336] a := by
      intro a
      match a with
      | ⟨0, _⟩ =>
        show 0 ≤ b.val * 1 + (((⟨3, ![1, 1, 25]⟩ : Shape).rowMajor.symm n) 0).val
          ∧ b.val * 1 + (((⟨3, ![1, 1, 25]⟩ : Shape).rowMajor.symm n) 0).val - 0 < 64
        omega
      | ⟨1, _⟩ =>
        show 0 ≤ c.val * 1 + (((⟨3, ![1, 1, 25]⟩ : Shape).rowMajor.symm n) 1).val
          ∧ c.val * 1 + (((⟨3, ![1, 1, 25]⟩ : Shape).rowMajor.symm n) 1).val - 0 < 2048
        omega
      | ⟨2, _⟩ =>
        show 24 ≤ l.val * 1 + (((⟨3, ![1, 1, 25]⟩ : Shape).rowMajor.symm n) 2).val
          ∧ l.val * 1 + (((⟨3, ![1, 1, 25]⟩ : Shape).rowMajor.symm n) 2).val - 24 < 336
        omega
    rw [dif_pos hin]
    unfold term row
    rw [if_pos h, dif_pos (by omega)]
    refine congrArg x (funext fun a => ?_)
    match a with
    | ⟨0, _⟩ =>
      apply Fin.ext
      show b.val * 1 + (((⟨3, ![1, 1, 25]⟩ : Shape).rowMajor.symm n) 0).val - 0 = b.val
      omega
    | ⟨1, _⟩ =>
      apply Fin.ext
      show c.val * 1 + (((⟨3, ![1, 1, 25]⟩ : Shape).rowMajor.symm n) 1).val - 0 = c.val
      omega
    | ⟨2, _⟩ =>
      apply Fin.ext
      show l.val * 1 + (((⟨3, ![1, 1, 25]⟩ : Shape).rowMajor.symm n) 2).val - 24 = l.val - (24 - n.val)
      omega
  · -- the place is padding
    rw [dif_neg]
    · unfold term; rw [if_neg h]
    · intro hin
      have h2 := hin 2
      have h2' : 24 ≤ l.val * 1 + (((⟨3, ![1, 1, 25]⟩ : Shape).rowMajor.symm n) 2).val
          ∧ l.val * 1 + (((⟨3, ![1, 1, 25]⟩ : Shape).rowMajor.symm n) 2).val - 24 < 336 := h2
      omega

/-- The reference's result is the pooled array. -/
theorem ref_eq (x : S64x2048x336.Idx → EReal) : val_main_v1 (F := Ideal) x = pooled x := by
  funext i
  obtain ⟨b, c, l, rfl⟩ : ∃ (b : Fin 64) (c : Fin 2048) (l : Fin 336), i = ix3 b c l := ⟨i 0, i 1, i 2, eq_ix3 i⟩
  exact ref_apply x b c l

end RefWindow

end
-- ==== Proof.lean ====
/-
  A causal sliding-window maximum along the last axis of an array of shape [64, 2048, 336]: at `(b, c, l)` the maximum
  of the entries `x (b, c, l - o)` over the lags `o = 0, …, 24` with `o ≤ l`.

  The kernel takes one [2048, 336] slab per grid point and builds the maximum lag by lag: the slab rotated along its rows
  by `o` places, the places the rotation brings around from the row's end masked to `-∞`, joined by an entrywise
  maximum, for `o = 1, …, 24` in turn (Proof/KernelRow.lean); the 64 slabs it writes back cover the result array
  (Proof/Whole.lean). The reference pads every row with 24 copies of `-∞` on the left and slides a window of 25 places
  over it, folding the maximum from `-∞` (Proof/RefWindow.lean). Both are the function `Pooled.pooled` of the argument
  array (Proof/Pooled.lean): the two meet the same 25 terms in opposite orders, and a maximum over finitely many terms
  does not depend on the order, `-∞` being neutral for it (Proof/CausalMax.lean). Only commutativity and associativity
  of the maximum are used, which hold at the infinities too, so the precondition (every input finite) is never opened.

  The kernel's idealization rewrote nothing, so it is the kernel's own text read over the extended reals, and
  `preserves` has nothing to state. The three frames are the generated ones (the reference's its generated run with
  the result dropped).
-/
import proofs.«145647_j67817533603999_2_alg».proof.Defs
import proofs.«145647_j67817533603999_2_alg».proof.Proof.Gen.Kernel
import proofs.«145647_j67817533603999_2_alg».proof.Proof.Gen.Kernel.Skeleton
import proofs.«145647_j67817533603999_2_alg».proof.Proof.Gen.Kernel.Launch
import proofs.«145647_j67817533603999_2_alg».proof.Proof.Gen.Kernel.Points
import proofs.«145647_j67817533603999_2_alg».proof.Proof.Gen.Kernel.Frame
import proofs.«145647_j67817533603999_2_alg».proof.Proof.Gen.KernelIdeal
import proofs.«145647_j67817533603999_2_alg».proof.Proof.Gen.KernelIdeal.Skeleton
import proofs.«145647_j67817533603999_2_alg».proof.Proof.Gen.KernelIdeal.Launch
import proofs.«145647_j67817533603999_2_alg».proof.Proof.Gen.KernelIdeal.Points
import proofs.«145647_j67817533603999_2_alg».proof.Proof.Gen.KernelIdeal.Frame
import proofs.«145647_j67817533603999_2_alg».proof.Proof.Gen.ReferenceIdeal
import proofs.«145647_j67817533603999_2_alg».proof.Proof.Gen.Pre_finite_inputs
import proofs.«145647_j67817533603999_2_alg».proof.Proof.Gen.KernelIdeal.Value
import proofs.«145647_j67817533603999_2_alg».proof.Proof.Gen.ReferenceIdeal.Run
import proofs.«145647_j67817533603999_2_alg».proof.Proof.Gen.ReferenceIdeal.Read
import proofs.«145647_j67817533603999_2_alg».proof.Proof.Whole
import proofs.«145647_j67817533603999_2_alg».proof.Proof.RefWindow
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to state. -/
theorem preserves : Cert.preserves_Kernel_KernelIdeal := trivial

/-- Over the extended reals the kernel's result array ends at the pooled array of its argument (the blocks it writes
    back cover the array, each the pooled slab), and the reference's at its sliding window over the padded rows of an
    argument that agrees: the same pooled array, the 25 terms of each entry met in the opposite order. -/
theorem algebraic : Cert.algebraic_KernelIdeal_ReferenceIdeal := by
  intro m ρ m' ρ' _ hagree
  refine ⟨fun c => Pooled.pooled (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [hagree c, Cert.ReferenceIdeal.Read.val_main_v1_eq]
  exact RefWindow.ref_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
